-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v7)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v7) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v14) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8192x1024 : Shape := ⟨2, ![8192, 1024]⟩
abbrev S10000x1024 : Shape := ⟨2, ![10000, 1024]⟩
abbrev S100x10000 : Shape := ⟨2, ![100, 10000]⟩
abbrev S_ : Shape := ⟨0, ![]⟩

class Facts : Prop where
  bcast_S_S8192x1024 : S_.BroadcastsInDim S8192x1024 (![] : Fin 0 → Fin S8192x1024.rank)
  reducesTo_S8192x1024_S_d0_1 : S8192x1024.ReducesTo [0, 1] S_
  h_S_ : 0 < S_.numel
  bcast_S_S10000x1024 : S_.BroadcastsInDim S10000x1024 (![] : Fin 0 → Fin S10000x1024.rank)
  reducesTo_S10000x1024_S_d0_1 : S10000x1024.ReducesTo [0, 1] S_

variable [Facts]

def fn {F : FTy → Type} [FloatOps F] (main_arg0 : FVec F S8192x1024 .f32) (main_arg1 : FVec F S10000x1024 .f32) (main_arg2 : IVec S100x10000 1) : IVec S_ 1 :=
  let main_v0 : FVec F S8192x1024 .f32 := Host.absf main_arg0
  let main_cst : FVec F S_ .f32 := constant S_ .f32 0x7F800000#32
  let main_v1 : FVec F S8192x1024 .f32 := broadcastInDim S8192x1024 ![] bcast_S_S8192x1024 main_cst
  let main_v2 : IVec S8192x1024 1 := cmpf .olt main_v0 main_v1
  let main_c : IVec S_ 1 := constantI S_ 1 1#1
  let main_v3 : IVec S_ 1 := (fun x v => Host.reduce IntOp.andi x v reducesTo_S8192x1024_S_d0_1 h_S_) main_v2 main_c
  let main_v4 : FVec F S10000x1024 .f32 := Host.absf main_arg1
  let main_cst_0 : FVec F S_ .f32 := constant S_ .f32 0x7F800000#32
  let main_v5 : FVec F S10000x1024 .f32 := broadcastInDim S10000x1024 ![] bcast_S_S10000x1024 main_cst_0
  let main_v6 : IVec S10000x1024 1 := cmpf .olt main_v4 main_v5
  let main_c_1 : IVec S_ 1 := constantI S_ 1 1#1
  let main_v7 : IVec S_ 1 := (fun x v => Host.reduce IntOp.andi x v reducesTo_S10000x1024_S_d0_1 h_S_) main_v6 main_c_1
  let main_v8 : IVec S_ 1 := andi main_v3 main_v7
  main_v8
-- ==== Kernel.lean ====
abbrev S8192x1024 : Shape := ⟨2, ![8192, 1024]⟩
abbrev S10000x1024 : Shape := ⟨2, ![10000, 1024]⟩
abbrev S100x10000 : Shape := ⟨2, ![100, 10000]⟩
abbrev S_ : Shape := ⟨0, ![]⟩
abbrev S10240x1024 : Shape := ⟨2, ![10240, 1024]⟩
abbrev S128x10240 : Shape := ⟨2, ![128, 10240]⟩
abbrev S8192x128 : Shape := ⟨2, ![8192, 128]⟩
abbrev S1024x1024 : Shape := ⟨2, ![1024, 1024]⟩
abbrev S1280x1024 : Shape := ⟨2, ![1280, 1024]⟩
abbrev S128x1280 : Shape := ⟨2, ![128, 1280]⟩
abbrev S1024x128 : Shape := ⟨2, ![1024, 128]⟩
abbrev S1024x1280 : Shape := ⟨2, ![1024, 1280]⟩
abbrev S8192x100 : Shape := ⟨2, ![8192, 100]⟩

abbrev nBuf : Space → Nat
  | .hbm => 20
  | .vmem => 9
  | .smem => 0
  | _ => 0

abbrev bufTy : (tb : Table) → Fin (tcTables nBuf tb) → BufTy
  | .hbm, ⟨0, _⟩ => ⟨S8192x1024, .f32⟩
  | .hbm, ⟨1, _⟩ => ⟨S10000x1024, .f32⟩
  | .hbm, ⟨2, _⟩ => ⟨S100x10000, .i1⟩
  | .hbm, ⟨3, _⟩ => ⟨S_, .f32⟩
  | .hbm, ⟨4, _⟩ => ⟨S8192x1024, .f32⟩
  | .hbm, ⟨5, _⟩ => ⟨S8192x1024, .f32⟩
  | .hbm, ⟨6, _⟩ => ⟨S_, .i32⟩
  | .hbm, ⟨7, _⟩ => ⟨S_, .f32⟩
  | .hbm, ⟨8, _⟩ => ⟨S10240x1024, .f32⟩
  | .hbm, ⟨9, _⟩ => ⟨S_, .f32⟩
  | .hbm, ⟨10, _⟩ => ⟨S_, .f32⟩
  | .hbm, ⟨11, _⟩ => ⟨S100x10000, .f32⟩
  | .hbm, ⟨12, _⟩ => ⟨S100x10000, .f32⟩
  | .hbm, ⟨13, _⟩ => ⟨S100x10000, .f32⟩
  | .hbm, ⟨14, _⟩ => ⟨S100x10000, .bf16⟩
  | .hbm, ⟨15, _⟩ => ⟨S_, .i32⟩
  | .hbm, ⟨16, _⟩ => ⟨S_, .bf16⟩
  | .hbm, ⟨17, _⟩ => ⟨S128x10240, .bf16⟩
  | .hbm, ⟨18, _⟩ => ⟨S8192x128, .f32⟩
  | .hbm, ⟨19, _⟩ => ⟨S8192x100, .f32⟩
  | .local _ .vmem, ⟨0, _⟩ => ⟨S1024x1024, .f32⟩
  | .local _ .vmem, ⟨1, _⟩ => ⟨S1024x1024, .f32⟩
  | .local _ .vmem, ⟨2, _⟩ => ⟨S1280x1024, .f32⟩
  | .local _ .vmem, ⟨3, _⟩ => ⟨S1280x1024, .f32⟩
  | .local _ .vmem, ⟨4, _⟩ => ⟨S128x1280, .bf16⟩
  | .local _ .vmem, ⟨5, _⟩ => ⟨S128x1280, .bf16⟩
  | .local _ .vmem, ⟨6, _⟩ => ⟨S1024x128, .f32⟩
  | .local _ .vmem, ⟨7, _⟩ => ⟨S1024x128, .f32⟩
  | .local _ .vmem, ⟨8, _⟩ => ⟨S1024x128, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_v1 : Ref sig .tc := ⟨.hbm, 5, rfl⟩
abbrev main_c : Ref sig .tc := ⟨.hbm, 6, rfl⟩
abbrev main_call0_v0 : Ref sig .tc := ⟨.hbm, 7, rfl⟩
abbrev main_v2 : Ref sig .tc := ⟨.hbm, 8, rfl⟩
abbrev main_cst_0 : Ref sig .tc := ⟨.hbm, 9, rfl⟩
abbrev main_cst_1 : Ref sig .tc := ⟨.hbm, 10, rfl⟩
abbrev main_call1_v0 : Ref sig .tc := ⟨.hbm, 11, rfl⟩
abbrev main_call1_v1 : Ref sig .tc := ⟨.hbm, 12, rfl⟩
abbrev main_v3 : Ref sig .tc := ⟨.hbm, 13, rfl⟩
abbrev main_v4 : Ref sig .tc := ⟨.hbm, 14, rfl⟩
abbrev main_c_2 : Ref sig .tc := ⟨.hbm, 15, rfl⟩
abbrev main_call2_v0 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![8, 8], ![false, false]⟩

def k0_cond2 (i : grid0.Coords) : BitVec 1 :=
  let arg1 : BitVec 32 := BitVec.ofNat 32 (i 1).val
  let c7_i32 : BitVec 32 := 7#32
  let v22 : BitVec 1 := Scalar.cmpi .eq arg1 c7_i32
  let v23 : BitVec 32 := Scalar.extui v22
  let c0_i32_14 : BitVec 32 := 0#32
  let v24 : BitVec 1 := Scalar.cmpi .ne v23 c0_i32_14
  v24

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1280x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S128x1280 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S1024x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

class Facts₀ : Prop where
  bcast_S_S8192x1024 : S_.BroadcastsInDim S8192x1024 (![] : Fin 0 → Fin S8192x1024.rank)
  pads_S10000x1024_S10240x1024_02400_000 : S10000x1024.Pads (![0, 0] : Fin 2 → Nat) ![240, 0] ![0, 0] S10240x1024
  h_S_ : 0 < S_.numel
  bcast_S_S100x10000 : S_.BroadcastsInDim S100x10000 (![] : Fin 0 → Fin S100x10000.rank)
  bitsLt_bf16_f32 : FTy.bits .bf16 < FTy.bits .f32
  pads_S100x10000_S128x10240_0280_02400 : S100x10000.Pads (![0, 0] : Fin 2 → Nat) ![28, 240] ![0, 0] S128x10240
  inb_S1024x128_S1024x128_0_0 : ∀ a, (![0, 0] : Fin 2 → Nat) a + S1024x128.size a ≤ S1024x128.size a
  h_S1024x128 : 0 < S1024x128.numel
  shapeCasts_S1024x128_S1024x128 : S1024x128.ShapeCasts S1024x128
  inb_S1024x1024_S1024x1024_0_0 : ∀ a, (![0, 0] : Fin 2 → Nat) a + S1024x1024.size a ≤ S1024x1024.size a
  h_S1024x1024 : 0 < S1024x1024.numel
  shapeCasts_S1024x1024_S1024x1024 : S1024x1024.ShapeCasts S1024x1024
  inb_S1280x1024_S1280x1024_0_0 : ∀ a, (![0, 0] : Fin 2 → Nat) a + S1280x1024.size a ≤ S1280x1024.size a
  h_S1280x1024 : 0 < S1280x1024.numel
  shapeCasts_S1280x1024_S1280x1024 : S1280x1024.ShapeCasts S1280x1024
  inb_S128x1280_S128x1280_0_0 : ∀ a, (![0, 0] : Fin 2 → Nat) a + S128x1280.size a ≤ S128x1280.size a
  h_S128x1280 : 0 < S128x1280.numel
  shapeCasts_S128x1280_S128x1280 : S128x1280.ShapeCasts S128x1280
  slices_S8192x128_S8192x100_0_0 : S8192x128.Slices ![0, 0] S8192x100
  dot_S1024x1024_S1280x1024_S1024x1280_1_1_0_0_n_n_wf : DotDims.WF S1024x1024 S1280x1024 S1024x1280 [1] [1] [0] [0] [] []
  dot_S1024x1280_S128x1280_S1024x128_1_1_0_0_n_n_wf : DotDims.WF S1024x1280 S128x1280 S1024x128 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x1024.size a ≤ S8192x1024.size a
  hwx0_0 : ∀ i : grid0.Coords, EltTy.bits .f32 = 32 ∨ (Rect.block (s := S8192x1024) S1024x1024.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1280x1024.size a ≤ S10240x1024.size a
  hwx0_1 : ∀ i : grid0.Coords, EltTy.bits .f32 = 32 ∨ (Rect.block (s := S10240x1024) S1280x1024.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S128x1280.size a ≤ S128x10240.size a
  hwx0_2 : ∀ i : grid0.Coords, EltTy.bits .bf16 = 32 ∨ (Rect.block (s := S128x10240) S128x1280.size (cc0_transform_2 i) (hinb0_2 i)).WholeWords (EltTy.packing .bf16)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1024x128.size a ≤ S8192x128.size a
  hwx0_3 : ∀ i : grid0.Coords, EltTy.bits .f32 = 32 ∨ (Rect.block (s := S8192x128) S1024x128.size (cc0_transform_3 i) (hinb0_3 i)).WholeWords (EltTy.packing .f32)

variable [Facts₀]

def dot_S1024x1024_S1280x1024_S1024x1280_1_1_0_0_n_n : DotDims S1024x1024 S1280x1024 S1024x1280 where
  lhsContracting := [1]
  rhsContracting := [1]
  lhsNonContracting := [0]
  rhsNonContracting := [0]
  lhsBatch := []
  rhsBatch := []
  wf := dot_S1024x1024_S1280x1024_S1024x1280_1_1_0_0_n_n_wf
def dot_S1024x1280_S128x1280_S1024x128_1_1_0_0_n_n : DotDims S1024x1280 S128x1280 S1024x128 where
  lhsContracting := [1]
  rhsContracting := [1]
  lhsNonContracting := [0]
  rhsNonContracting := [0]
  lhsBatch := []
  rhsBatch := []
  wf := dot_S1024x1280_S128x1280_S1024x128_1_1_0_0_n_n_wf

abbrev win0_0 : Pipeline.Window sig grid0 :=
  Pipeline.Window.ofSpec (Memref.whole main_v1) S1024x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v2) S1280x1024.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v5) S128x1280.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v6) S1024x128.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev idle0 : Fin 4 → grid0.Coords → Bool := fun | 0 => fun _ => false | 1 => fun _ => false | 2 => fun _ => false | 3 => fun i => !(k0_cond2 i == 1#1) | ⟨_ + 4, h⟩ => absurd h (Nat.not_lt.2 (Nat.le_add_left _ _))

class Facts : Prop extends Facts₀ where

variable [Facts]
-- ==== ReferenceIdeal.lean ====
abbrev S8192x1024 : Shape := ⟨2, ![8192, 1024]⟩
abbrev S10000x1024 : Shape := ⟨2, ![10000, 1024]⟩
abbrev S100x10000 : Shape := ⟨2, ![100, 10000]⟩
abbrev S_ : Shape := ⟨0, ![]⟩
abbrev S1024x10000 : Shape := ⟨2, ![1024, 10000]⟩
abbrev S8192x10000 : Shape := ⟨2, ![8192, 10000]⟩
abbrev S8192x100 : Shape := ⟨2, ![8192, 100]⟩

abbrev nBuf : Space → Nat
  | .hbm => 30
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S10000x1024, .f32⟩
  | .hbm, ⟨2, _⟩ => ⟨S100x10000, .i1⟩
  | .hbm, ⟨3, _⟩ => ⟨S_, .f32⟩
  | .hbm, ⟨4, _⟩ => ⟨S8192x1024, .f32⟩
  | .hbm, ⟨5, _⟩ => ⟨S8192x1024, .f32⟩
  | .hbm, ⟨6, _⟩ => ⟨S1024x10000, .f32⟩
  | .hbm, ⟨7, _⟩ => ⟨S8192x10000, .f32⟩
  | .hbm, ⟨8, _⟩ => ⟨S_, .f32⟩
  | .hbm, ⟨9, _⟩ => ⟨S8192x10000, .f32⟩
  | .hbm, ⟨10, _⟩ => ⟨S8192x10000, .i1⟩
  | .hbm, ⟨11, _⟩ => ⟨S_, .f32⟩
  | .hbm, ⟨12, _⟩ => ⟨S_, .f32⟩
  | .hbm, ⟨13, _⟩ => ⟨S8192x10000, .f32⟩
  | .hbm, ⟨14, _⟩ => ⟨S8192x10000, .f32⟩
  | .hbm, ⟨15, _⟩ => ⟨S8192x10000, .f32⟩
  | .hbm, ⟨16, _⟩ => ⟨S8192x10000, .f32⟩
  | .hbm, ⟨17, _⟩ => ⟨S_, .f32⟩
  | .hbm, ⟨18, _⟩ => ⟨S_, .f32⟩
  | .hbm, ⟨19, _⟩ => ⟨S100x10000, .f32⟩
  | .hbm, ⟨20, _⟩ => ⟨S100x10000, .f32⟩
  | .hbm, ⟨21, _⟩ => ⟨S100x10000, .f32⟩
  | .hbm, ⟨22, _⟩ => ⟨S100x10000, .f32⟩
  | .hbm, ⟨23, _⟩ => ⟨S8192x100, .f32⟩
  | .hbm, ⟨24, _⟩ => ⟨S_, .f32⟩
  | .hbm, ⟨25, _⟩ => ⟨S8192x100, .f32⟩
  | .hbm, ⟨26, _⟩ => ⟨S8192x100, .f32⟩
  | .hbm, ⟨27, _⟩ => ⟨S_, .f32⟩
  | .hbm, ⟨28, _⟩ => ⟨S8192x100, .f32⟩
  | .hbm, ⟨29, _⟩ => ⟨S8192x100, .f32⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_cst_0 : Ref sig .tc := ⟨.hbm, 8, rfl⟩
abbrev main_v4 : Ref sig .tc := ⟨.hbm, 9, rfl⟩
abbrev main_v5 : Ref sig .tc := ⟨.hbm, 10, rfl⟩
abbrev main_cst_1 : Ref sig .tc := ⟨.hbm, 11, rfl⟩
abbrev main_cst_2 : Ref sig .tc := ⟨.hbm, 12, rfl⟩
abbrev main_call0_v0 : Ref sig .tc := ⟨.hbm, 13, rfl⟩
abbrev main_call0_v1 : Ref sig .tc := ⟨.hbm, 14, rfl⟩
abbrev main_v6 : Ref sig .tc := ⟨.hbm, 15, rfl⟩
abbrev main_v7 : Ref sig .tc := ⟨.hbm, 16, rfl⟩
abbrev main_cst_3 : Ref sig .tc := ⟨.hbm, 17, rfl⟩
abbrev main_cst_4 : Ref sig .tc := ⟨.hbm, 18, rfl⟩
abbrev main_call1_v0 : Ref sig .tc := ⟨.hbm, 19, rfl⟩
abbrev main_call1_v1 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_cst_5 : Ref sig .tc := ⟨.hbm, 24, rfl⟩
abbrev main_v11 : Ref sig .tc := ⟨.hbm, 25, rfl⟩
abbrev main_v12 : Ref sig .tc := ⟨.hbm, 26, rfl⟩
abbrev main_cst_6 : Ref sig .tc := ⟨.hbm, 27, rfl⟩
abbrev main_v13 : Ref sig .tc := ⟨.hbm, 28, rfl⟩
abbrev main_v14 : Ref sig .tc := ⟨.hbm, 29, rfl⟩

abbrev nD : Nat := 1
abbrev τ : Topo := Topo.v7x

variable {F : FTy → Type} [FloatOps F]

class Facts₀ : Prop where
  bcast_S_S8192x1024 : S_.BroadcastsInDim S8192x1024 (![] : Fin 0 → Fin S8192x1024.rank)
  transposes_S10000x1024_S1024x10000_1_0 : S10000x1024.Transposes [1, 0] S1024x10000
  bcast_S_S8192x10000 : S_.BroadcastsInDim S8192x10000 (![] : Fin 0 → Fin S8192x10000.rank)
  bcast_S_S100x10000 : S_.BroadcastsInDim S100x10000 (![] : Fin 0 → Fin S100x10000.rank)
  bcast_S_S8192x100 : S_.BroadcastsInDim S8192x100 (![] : Fin 0 → Fin S8192x100.rank)
  dot_S8192x1024_S1024x10000_S8192x10000_1_0_0_1_n_n_wf : DotDims.WF S8192x1024 S1024x10000 S8192x10000 [1] [0] [0] [1] [] []
  dot_S8192x10000_S100x10000_S8192x100_1_1_0_0_n_n_wf : DotDims.WF S8192x10000 S100x10000 S8192x100 [1] [1] [0] [0] [] []

variable [Facts₀]

def dot_S8192x1024_S1024x10000_S8192x10000_1_0_0_1_n_n : DotDims S8192x1024 S1024x10000 S8192x10000 where
  lhsContracting := [1]
  rhsContracting := [0]
  lhsNonContracting := [0]
  rhsNonContracting := [1]
  lhsBatch := []
  rhsBatch := []
  wf := dot_S8192x1024_S1024x10000_S8192x10000_1_0_0_1_n_n_wf
def dot_S8192x10000_S100x10000_S8192x100_1_1_0_0_n_n : DotDims S8192x10000 S100x10000 S8192x100 where
  lhsContracting := [1]
  rhsContracting := [1]
  lhsNonContracting := [0]
  rhsNonContracting := [0]
  lhsBatch := []
  rhsBatch := []
  wf := dot_S8192x10000_S100x10000_S8192x100_1_1_0_0_n_n_wf

class Facts : Prop extends Facts₀ where

variable [Facts]
-- ==== Proof.Spec.lean ====
/-
  The specification both programs meet, over the extended reals.

  A sample row `b` is centred (each entry minus one half) and projected on the ten thousand weight rows; each
  projection is coded +1 where it is positive and -1 elsewhere; a centroid bit is coded +1 / -1 the same way; the
  result at (b, c) is (10000 + Σ_d code(proj b d) · pm(cent c d)) · ½ — the number of positions where the coded
  sample and centroid `c` agree.  Below it, the one law that joins the two programs: a sum over 10240 = 8 · 1280
  positions taken 1280 at a time, whose last 240 terms vanish, is the sum over the first 10000.
-/
import Idealize.ShloMosaic.PureOps.Ideal
import Idealize.ShloMosaic.PureOps.Ideal.Laws
import Idealize.ShloMosaic.Lib.ValueIdx

noncomputable section

open scoped BigOperators

namespace Cert.Spec

open Idealize.ShloMosaic Idealize.ShloMosaic.ValueIdx

/-- The float words the two programs share, read as extended reals. -/
abbrev half : EReal := Ideal.ofBits .f32 0x3F000000#32
abbrev one : EReal := Ideal.ofBits .f32 0x3F800000#32
abbrev negOne : EReal := Ideal.ofBits .f32 0xBF800000#32
abbrev zero : EReal := Ideal.ofBits .f32 0x00000000#32
abbrev tenK : EReal := Ideal.ofBits .f32 0x461C4000#32

/-- The code of a projection: +1 where it exceeds zero, -1 elsewhere. -/
def code (p : EReal) : EReal :=
  Scalar.select (FloatOps.cmpf (F := Ideal) (φ := .f32) .ogt p zero) one negOne

/-- The code of a centroid bit: +1 for a set bit, -1 for a clear one. -/
def pm (b : BitVec 1) : EReal := Scalar.select b one negOne

/-- Row `b` of the centred samples against weight row `d`. -/
def proj (x : (⟨2, ![8192, 1024]⟩ : Shape).Idx → EReal) (w : (⟨2, ![10000, 1024]⟩ : Shape).Idx → EReal)
    (b : Fin 8192) (d : Fin 10000) : EReal :=
  ∑ j : Fin 1024, (x (ix2 b j) - half) * w (ix2 d j)

/-- The agreement count of coded sample `b` with coded centroid `c`. -/
def G (x : (⟨2, ![8192, 1024]⟩ : Shape).Idx → EReal) (w : (⟨2, ![10000, 1024]⟩ : Shape).Idx → EReal)
    (cent : (⟨2, ![100, 10000]⟩ : Shape).Idx → BitVec 1) : (⟨2, ![8192, 100]⟩ : Shape).Idx → EReal :=
  fun i => (tenK + ∑ d : Fin 10000, code (proj x w (i 0) d) * pm (cent (ix2 (i 1) d))) * half

/-! ## Sums taken a block at a time -/

/-- The first `(k + 1) · n` terms are the first `k · n` and then block `k`. -/
theorem sum_range_succ_block {M : Type*} [AddCommMonoid M] (f : ℕ → M) (n k : ℕ) :
    ∑ d ∈ Finset.range ((k + 1) * n), f d
      = ∑ d ∈ Finset.range (k * n), f d + ∑ e ∈ Finset.range n, f (k * n + e) := by
  rw [show (k + 1) * n = k * n + n by ring, Finset.sum_range_add]

/-- Terms that vanish from `a` on do not count. -/
theorem sum_range_of_tail_zero {M : Type*} [AddCommMonoid M] (f : ℕ → M) (a b : ℕ) (hab : a ≤ b)
    (h0 : ∀ d, a ≤ d → d < b → f d = 0) :
    ∑ d ∈ Finset.range b, f d = ∑ d ∈ Finset.range a, f d := by
  refine (Finset.sum_subset (Finset.range_mono hab) fun d hd hnd => ?_).symm
  exact h0 d (by simpa using hnd) (by simpa using hd)

end Cert.Spec

end
-- ==== Proof.RefIsSpec.lean ====
/-
  The reference IS the specification.

  Read one operation at a time, the reference centres the samples (x − ½), contracts each centred row with each
  weight row (the projection), codes a projection +1 where it exceeds zero and −1 elsewhere, codes a centroid bit the
  same way, contracts the coded samples with the coded centroids over the ten thousand positions, adds ten thousand
  on the left and multiplies by one half on the right: entry by entry that is `Cert.Spec.G` of its three arguments.
-/
import proofs.«132201_j48223892799748_2_alg».proof.Proof.Spec
import proofs.«132201_j48223892799748_2_alg».proof.Proof.Gen.ReferenceIdeal.Read

noncomputable section

open scoped BigOperators
open Idealize.ShloMosaic Idealize.ShloMosaic.ValueIdx Idealize.ShloMosaic.TcCoe Idealize.SL.Sem

namespace Cert.RefSide
open Cert.ReferenceIdeal Cert.ReferenceIdeal.Read

/-- The broadcast constant ten thousand. -/
private theorem v11_eq (i : S8192x100.Idx) : val_main_v11 (F := Ideal) i = Cert.Spec.tenK := by
  rw [val_main_v11_apply, val_main_cst_5_apply]; rfl

/-- The broadcast constant one half of the last stage. -/
private theorem v13_eq (i : S8192x100.Idx) : val_main_v13 (F := Ideal) i = Cert.Spec.half := by
  rw [val_main_v13_apply, val_main_cst_6_apply]; rfl

/-- The broadcast constant one half that centres the samples. -/
private theorem v0_eq (i : S8192x1024.Idx) : val_main_v0 (F := Ideal) i = Cert.Spec.half := by
  rw [val_main_v0_apply, val_main_cst_apply]; rfl

/-- The broadcast zero the projections are compared with. -/
private theorem v4_eq (i : S8192x10000.Idx) : val_main_v4 (F := Ideal) i = Cert.Spec.zero := by
  rw [val_main_v4_apply, val_main_cst_0_apply]; rfl

private theorem c0v0_eq (i : S8192x10000.Idx) : val_main_call0_v0 (F := Ideal) i = Cert.Spec.one := by
  rw [val_main_call0_v0_apply, val_main_cst_1_apply]; rfl

private theorem c0v1_eq (i : S8192x10000.Idx) : val_main_call0_v1 (F := Ideal) i = Cert.Spec.negOne := by
  rw [val_main_call0_v1_apply, val_main_cst_2_apply]; rfl

private theorem c1v0_eq (i : S100x10000.Idx) : val_main_call1_v0 (F := Ideal) i = Cert.Spec.one := by
  rw [val_main_call1_v0_apply, val_main_cst_3_apply]; rfl

private theorem c1v1_eq (i : S100x10000.Idx) : val_main_call1_v1 (F := Ideal) i = Cert.Spec.negOne := by
  rw [val_main_call1_v1_apply, val_main_cst_4_apply]; rfl

/-- The first contraction at (b, d) is the projection of centred row b on weight row d. -/
private theorem v3_eq (x0 : S8192x1024.Idx → EReal) (x1 : S10000x1024.Idx → EReal) (b : Fin 8192) (d : Fin 10000) :
    val_main_v3 (F := Ideal) x0 x1 (ix2 b d) = Cert.Spec.proj x0 x1 b d := by
  rw [val_main_v3_apply]
  unfold Cert.Spec.proj
  refine Finset.sum_congr rfl fun j _ => ?_
  have e1 : lidx_main_v3 (ix2 b d) j = ix2 b j :=
    funext fun a => Fin.ext (by match a with | ⟨0, _⟩ => rfl | ⟨1, _⟩ => rfl)
  have e2 : idx_main_v2 (ridx_main_v3 (ix2 b d) j) = ix2 d j :=
    funext fun a => Fin.ext (by match a with | ⟨0, _⟩ => rfl | ⟨1, _⟩ => rfl)
  rw [val_main_v1_apply, val_main_v2_apply, v0_eq, e1, e2]
  rfl

/-- The coded projection. -/
private theorem v7_eq (x0 : S8192x1024.Idx → EReal) (x1 : S10000x1024.Idx → EReal) (b : Fin 8192) (d : Fin 10000) :
    val_main_v7 (F := Ideal) x0 x1 (ix2 b d) = Cert.Spec.code (Cert.Spec.proj x0 x1 b d) := by
  rw [val_main_v7_apply, val_main_v6_apply, val_main_v5_apply, v3_eq, v4_eq, c0v0_eq, c0v1_eq]
  rfl

/-- The coded centroid bit. -/
private theorem v9_eq (x2 : S100x10000.Idx → BitVec 1) (i : S100x10000.Idx) :
    val_main_v9 (F := Ideal) x2 i = Cert.Spec.pm (x2 i) := by
  rw [val_main_v9_apply, val_main_v8_apply, c1v0_eq, c1v1_eq]
  rfl

/-- The reference's last stage is the specification of its three arguments. -/
theorem ref_is_spec (x0 : S8192x1024.Idx → EReal) (x1 : S10000x1024.Idx → EReal) (x2 : S100x10000.Idx → BitVec 1) :
    val_main_v14 (F := Ideal) x0 x1 x2 = Cert.Spec.G x0 x1 x2 := by
  funext i
  obtain ⟨b, c, rfl⟩ : ∃ (b : Fin 8192) (c : Fin 100), i = ix2 b c := ⟨i 0, i 1, eq_ix2 i⟩
  rw [val_main_v14_apply, val_main_v12_apply, val_main_v10_apply, v11_eq, v13_eq]
  unfold Cert.Spec.G
  have hs : ∑ k : Fin 10000, (val_main_v7 (F := Ideal) x0 x1) (lidx_main_v10 (ix2 b c) k) * (val_main_v9 (F := Ideal) x2) (ridx_main_v10 (ix2 b c) k)
      = ∑ d : Fin 10000, Cert.Spec.code (Cert.Spec.proj x0 x1 b d) * Cert.Spec.pm (x2 (ix2 c d)) := by
    refine Finset.sum_congr rfl fun d _ => ?_
    have e1 : lidx_main_v10 (ix2 b c) d = ix2 b d :=
      funext fun a => Fin.ext (by match a with | ⟨0, _⟩ => rfl | ⟨1, _⟩ => rfl)
    have e2 : ridx_main_v10 (ix2 b c) d = ix2 c d :=
      funext fun a => Fin.ext (by match a with | ⟨0, _⟩ => rfl | ⟨1, _⟩ => rfl)
    rw [e1, e2, v7_eq, v9_eq]
  rw [hs]
  rfl

end Cert.RefSide

end
-- ==== Proof.Pieces.lean ====
/-
  What one run of the kernel body leaves behind, as values.

  The body keeps a running block `acc` of shape [1024, 128] between grid points.  At every point it forms the
  update (the second payload `k0_pay2 x w cp acc`: `acc` plus the product of the coded projections of the sample
  block `x` on the weight block `w` with the coded centroid block `cp`) and stores it over `acc`.  At the first point of
  a row of the grid it first stores the zero block, so the update starts from zero; at the last point of a row it
  also stores `(10000 + acc) · ½` of the fresh `acc` into the output block.  The four lemmas below say exactly this
  of the contents each case of the body leaves, for every float instance.
-/
import proofs.«132201_j48223892799748_2_alg».proof.Proof.Gen.KernelIdeal.Frame
import Idealize.ShloMosaic.Lib.Pipeline.Value
import Idealize.ShloMosaic.Lib.Tactic

set_option maxRecDepth 16384

noncomputable section

open Idealize.ShloMosaic Idealize.ShloMosaic.TcCoe Idealize.SL.Sem
open Idealize.ShloMosaic.Pipeline (Dat)

namespace Cert.KernelSide

open Cert.KernelIdeal Cert.KernelIdeal.Gen

variable {F : FTy → Type} [FloatOps F]

/-- Both offsets of every access of the body are zero. -/
theorem hz : (![0, 0] : Fin 2 → Nat) = fun _ => 0 := funext fun a => by fin_cases a <;> rfl

/-- A middle point of a row: the running block becomes its update. -/
theorem sout_B (c : Dev nD) (i : grid0.Coords) (a2 : Memref sig .tc .vmem S1024x1024 .f32) (h2 : a2.IsWhole)
    (a3 : Memref sig .tc .vmem S1280x1024 .f32) (h3 : a3.IsWhole) (a4 : Memref sig .tc .vmem S128x1280 .bf16) (h4 : a4.IsWhole)
    (a5 : Memref sig .tc .vmem S1024x128 .f32) (h5 : a5.IsWhole) (a6 : Memref sig .tc .vmem S1024x128 .f32) (h6 : a6.IsWhole)
    (hc0 : ¬cond0_0 i) (hc1 : ¬cond0_1 i)
    (x0 : Vec F S1024x1024 .f32) (x1 : Vec F S1280x1024 .f32) (x2 : Vec F S128x1280 .bf16) (xs0 : Vec F S1024x128 .f32) :
    sout0_B_0 c i a2 h2 a3 h3 a4 h4 a5 h5 a6 h6 hc0 hc1 x0 x1 x2 xs0 = k0_pay2 x0 x1 x2 xs0 := by
  unfold sout0_B_0
  rw [View.read_writes_eq_canon _ _ _ (scover0_B_0 c i a2 h2 a3 h3 a4 h4 a5 h5 a6 h6 hc0 hc1 x0 x1 x2 xs0)]
  unfold kernelRun0_B
  dsimp only
  rw [View.canon_unit_zero hz]
  simp only [View.readAt_eq_ld, h2.read_unread, h3.read_unread, h4.read_unread, h6.read_unread,
    View.ld_unit_zero (S := S1024x1024) hz, View.ld_unit_zero (S := S1280x1024) hz, View.ld_unit_zero (S := S128x1280) hz,
    View.ld_unit_zero (S := S1024x128) hz]

/-- The last point of a row: the running block becomes its update, -/
theorem sout_C (c : Dev nD) (i : grid0.Coords) (a2 : Memref sig .tc .vmem S1024x1024 .f32) (h2 : a2.IsWhole)
    (a3 : Memref sig .tc .vmem S1280x1024 .f32) (h3 : a3.IsWhole) (a4 : Memref sig .tc .vmem S128x1280 .bf16) (h4 : a4.IsWhole)
    (a5 : Memref sig .tc .vmem S1024x128 .f32) (h5 : a5.IsWhole) (a6 : Memref sig .tc .vmem S1024x128 .f32) (h6 : a6.IsWhole)
    (hc0 : ¬cond0_0 i) (hc1 : cond0_1 i)
    (x0 : Vec F S1024x1024 .f32) (x1 : Vec F S1280x1024 .f32) (x2 : Vec F S128x1280 .bf16) (xs0 : Vec F S1024x128 .f32) :
    sout0_C_0 c i a2 h2 a3 h3 a4 h4 a5 h5 a6 h6 hc0 hc1 x0 x1 x2 xs0 = k0_pay2 x0 x1 x2 xs0 := by
  unfold sout0_C_0
  rw [View.read_writes_eq_canon _ _ _ (scover0_C_0 c i a2 h2 a3 h3 a4 h4 a5 h5 a6 h6 hc0 hc1 x0 x1 x2 xs0)]
  unfold kernelRun0_C
  dsimp only
  sl_unfold_words
  rw [View.canon_unit_zero hz]
  simp only [View.readAt_eq_ld, h2.read_unread, h3.read_unread, h4.read_unread, h6.read_unread,
    View.ld_unit_zero (S := S1024x1024) hz, View.ld_unit_zero (S := S1280x1024) hz, View.ld_unit_zero (S := S128x1280) hz,
    View.ld_unit_zero (S := S1024x128) hz]

/-- and the output block is `(10000 + ·) · ½` of that update, read back from the running block. -/
theorem out_C (c : Dev nD) (i : grid0.Coords) (a2 : Memref sig .tc .vmem S1024x1024 .f32) (h2 : a2.IsWhole)
    (a3 : Memref sig .tc .vmem S1280x1024 .f32) (h3 : a3.IsWhole) (a4 : Memref sig .tc .vmem S128x1280 .bf16) (h4 : a4.IsWhole)
    (a5 : Memref sig .tc .vmem S1024x128 .f32) (h5 : a5.IsWhole) (a6 : Memref sig .tc .vmem S1024x128 .f32) (h6 : a6.IsWhole)
    (hc0 : ¬cond0_0 i) (hc1 : cond0_1 i)
    (x0 : Vec F S1024x1024 .f32) (x1 : Vec F S1280x1024 .f32) (x2 : Vec F S128x1280 .bf16) (xs0 : Vec F S1024x128 .f32) :
    out0_C_3 c i a2 h2 a3 h3 a4 h4 a5 h5 a6 h6 hc0 hc1 x0 x1 x2 xs0 = k0_pay3 (k0_pay2 x0 x1 x2 xs0) := by
  unfold out0_C_3
  rw [View.read_writes_eq_canon _ _ _ (cover0_C_3 c i a2 h2 a3 h3 a4 h4 a5 h5 a6 h6 hc0 hc1 x0 x1 x2 xs0)]
  unfold kernelRun0_C
  dsimp only
  sl_unfold_words
  rw [View.canon_unit_zero hz, View.readCov_unit_zero (S := S1024x128) _ hz]
  simp only [View.readAt_eq_ld, h2.read_unread, h3.read_unread, h4.read_unread, h6.read_unread,
    View.ld_unit_zero (S := S1024x1024) hz, View.ld_unit_zero (S := S1280x1024) hz, View.ld_unit_zero (S := S128x1280) hz,
    View.ld_unit_zero (S := S1024x128) hz]

/-- The first point of a row: the zero block is stored and read back, so the update starts from it. -/
theorem sout_A (c : Dev nD) (i : grid0.Coords) (a2 : Memref sig .tc .vmem S1024x1024 .f32) (h2 : a2.IsWhole)
    (a3 : Memref sig .tc .vmem S1280x1024 .f32) (h3 : a3.IsWhole) (a4 : Memref sig .tc .vmem S128x1280 .bf16) (h4 : a4.IsWhole)
    (a5 : Memref sig .tc .vmem S1024x128 .f32) (h5 : a5.IsWhole) (a6 : Memref sig .tc .vmem S1024x128 .f32) (h6 : a6.IsWhole)
    (hc0 : cond0_0 i) (hc1 : ¬cond0_1 i)
    (x0 : Vec F S1024x1024 .f32) (x1 : Vec F S1280x1024 .f32) (x2 : Vec F S128x1280 .bf16) :
    sout0_A_0 c i a2 h2 a3 h3 a4 h4 a5 h5 a6 h6 hc0 hc1 x0 x1 x2 = k0_pay2 x0 x1 x2 (k0_pay1 (F := F)) := by
  unfold sout0_A_0
  rw [View.read_writes_eq_canon _ _ _ (scover0_A_0 c i a2 h2 a3 h3 a4 h4 a5 h5 a6 h6 hc0 hc1 x0 x1 x2)]
  unfold kernelRun0_A
  dsimp only
  sl_unfold_words
  rw [View.canon_cons_unit_zero (S := S1024x128) hz, View.readCov_unit_zero (S := S1024x128) _ hz]
  simp only [View.readAt_eq_ld, h2.read_unread, h3.read_unread, h4.read_unread, h6.read_unread,
    View.ld_unit_zero (S := S1024x1024) hz, View.ld_unit_zero (S := S1280x1024) hz, View.ld_unit_zero (S := S128x1280) hz,
    View.ld_unit_zero (S := S1024x128) hz]

end Cert.KernelSide
end
-- ==== Proof.Payload.lean ====
/-
  The kernel body's three stored values, entry by entry, over the extended reals.

  The zero block is zero everywhere.  The update of the running block `acc` at (r, cc) is
      acc[r, cc] + Σ_{d < 1280} code(Σ_{j < 1024} x[r, j] · w[d, j]) · cp[cc, d]
  for the sample block `x`, the weight block `w` and the coded centroid block `cp`: a matrix product into a zero
  accumulator is the plain sum over its one contracted axis, a change of float format is the identity, and the
  comparison with zero followed by the choice of ±1 is `Cert.Spec.code`.  The output value at (r, cc) is
  `(10000 + v[r, cc]) · ½`.
-/
import proofs.«132201_j48223892799748_2_alg».proof.Proof.Spec
import proofs.«132201_j48223892799748_2_alg».proof.Proof.Gen.KernelIdeal.Skeleton
import Idealize.ShloMosaic.Lib.Pipeline.Value
import Idealize.ShloMosaic.PureOps.Ideal.Laws

noncomputable section

open scoped BigOperators
open Idealize.ShloMosaic Idealize.ShloMosaic.ValueIdx Idealize.ShloMosaic.TcCoe Idealize.SL.Sem

namespace Cert.KernelSide
open Cert.KernelIdeal Cert.KernelIdeal.Gen

/-- The first product's left operand index: row of the output, contraction coordinate. -/
private theorem d1_lhs0 (i : S1024x1280.Idx) (q : dot_S1024x1024_S1280x1024_S1024x1280_1_1_0_0_n_n.contr.Idx) :
    (dot_S1024x1024_S1280x1024_S1024x1280_1_1_0_0_n_n.lhsIdx i q 0).val = (i 0).val := by
  unfold DotDims.lhsIdx
  rw [dif_neg (show ¬(0 : Fin S1024x1024.rank) ∈ dot_S1024x1024_S1280x1024_S1024x1280_1_1_0_0_n_n.lhsBatch by decide), dif_pos (show (0 : Fin S1024x1024.rank) ∈ dot_S1024x1024_S1280x1024_S1024x1280_1_1_0_0_n_n.lhsNonContracting by decide)]
  rfl
private theorem d1_lhs1 (i : S1024x1280.Idx) (q : dot_S1024x1024_S1280x1024_S1024x1280_1_1_0_0_n_n.contr.Idx) :
    (dot_S1024x1024_S1280x1024_S1024x1280_1_1_0_0_n_n.lhsIdx i q 1).val = (q ⟨0, by decide⟩).val :=
  dot_S1024x1024_S1280x1024_S1024x1280_1_1_0_0_n_n.lhsIdx_val_of_single rfl i q
private theorem d1_rhs0 (i : S1024x1280.Idx) (q : dot_S1024x1024_S1280x1024_S1024x1280_1_1_0_0_n_n.contr.Idx) :
    (dot_S1024x1024_S1280x1024_S1024x1280_1_1_0_0_n_n.rhsIdx i q 0).val = (i 1).val := by
  unfold DotDims.rhsIdx
  rw [dif_neg (show ¬(0 : Fin S1280x1024.rank) ∈ dot_S1024x1024_S1280x1024_S1024x1280_1_1_0_0_n_n.rhsBatch by decide), dif_pos (show (0 : Fin S1280x1024.rank) ∈ dot_S1024x1024_S1280x1024_S1024x1280_1_1_0_0_n_n.rhsNonContracting by decide)]
  rfl
private theorem d1_rhs1 (i : S1024x1280.Idx) (q : dot_S1024x1024_S1280x1024_S1024x1280_1_1_0_0_n_n.contr.Idx) :
    (dot_S1024x1024_S1280x1024_S1024x1280_1_1_0_0_n_n.rhsIdx i q 1).val = (q ⟨0, by decide⟩).val :=
  dot_S1024x1024_S1280x1024_S1024x1280_1_1_0_0_n_n.rhsIdx_val_of_single rfl i q

/-- The first product into the zero constant, read at (r, d): row r of the left operand against row d of the right. -/
private theorem mm1_apply (lhs : FVec Ideal S1024x1024 .f32) (rhs : FVec Ideal S1280x1024 .f32) (r : Fin 1024) (d : Fin 1280) :
    FloatOps.matmul (F := Ideal) dot_S1024x1024_S1280x1024_S1024x1280_1_1_0_0_n_n (some .fp32) lhs rhs (constant S1024x1280 .f32 0x00000000#32) (ix2 r d)
      = ∑ j : Fin 1024, lhs (ix2 r j) * rhs (ix2 d j) := by
  rw [Ideal.matmul_constant_zero_apply, ← Equiv.sum_comp (ValueIdx.contrEquiv1 dot_S1024x1024_S1280x1024_S1024x1280_1_1_0_0_n_n 1024 rfl rfl).symm]
  refine Finset.sum_congr rfl fun k _ => ?_
  have hk := ValueIdx.contrEquiv1_symm_val dot_S1024x1024_S1280x1024_S1024x1280_1_1_0_0_n_n 1024 rfl rfl k
  have el : dot_S1024x1024_S1280x1024_S1024x1280_1_1_0_0_n_n.lhsIdx (ix2 r d) ((ValueIdx.contrEquiv1 dot_S1024x1024_S1280x1024_S1024x1280_1_1_0_0_n_n 1024 rfl rfl).symm k) = ix2 r k := funext fun a => Fin.ext (by
    match a with
    | ⟨0, _⟩ => exact d1_lhs0 _ _
    | ⟨1, _⟩ => exact (d1_lhs1 _ _).trans hk)
  have er : dot_S1024x1024_S1280x1024_S1024x1280_1_1_0_0_n_n.rhsIdx (ix2 r d) ((ValueIdx.contrEquiv1 dot_S1024x1024_S1280x1024_S1024x1280_1_1_0_0_n_n 1024 rfl rfl).symm k) = ix2 d k := funext fun a => Fin.ext (by
    match a with
    | ⟨0, _⟩ => exact d1_rhs0 _ _
    | ⟨1, _⟩ => exact (d1_rhs1 _ _).trans hk)
  rw [el, er]

private theorem d2_lhs0 (i : S1024x128.Idx) (q : dot_S1024x1280_S128x1280_S1024x128_1_1_0_0_n_n.contr.Idx) :
    (dot_S1024x1280_S128x1280_S1024x128_1_1_0_0_n_n.lhsIdx i q 0).val = (i 0).val := by
  unfold DotDims.lhsIdx
  rw [dif_neg (show ¬(0 : Fin S1024x1280.rank) ∈ dot_S1024x1280_S128x1280_S1024x128_1_1_0_0_n_n.lhsBatch by decide), dif_pos (show (0 : Fin S1024x1280.rank) ∈ dot_S1024x1280_S128x1280_S1024x128_1_1_0_0_n_n.lhsNonContracting by decide)]
  rfl
private theorem d2_lhs1 (i : S1024x128.Idx) (q : dot_S1024x1280_S128x1280_S1024x128_1_1_0_0_n_n.contr.Idx) :
    (dot_S1024x1280_S128x1280_S1024x128_1_1_0_0_n_n.lhsIdx i q 1).val = (q ⟨0, by decide⟩).val :=
  dot_S1024x1280_S128x1280_S1024x128_1_1_0_0_n_n.lhsIdx_val_of_single rfl i q
private theorem d2_rhs0 (i : S1024x128.Idx) (q : dot_S1024x1280_S128x1280_S1024x128_1_1_0_0_n_n.contr.Idx) :
    (dot_S1024x1280_S128x1280_S1024x128_1_1_0_0_n_n.rhsIdx i q 0).val = (i 1).val := by
  unfold DotDims.rhsIdx
  rw [dif_neg (show ¬(0 : Fin S128x1280.rank) ∈ dot_S1024x1280_S128x1280_S1024x128_1_1_0_0_n_n.rhsBatch by decide), dif_pos (show (0 : Fin S128x1280.rank) ∈ dot_S1024x1280_S128x1280_S1024x128_1_1_0_0_n_n.rhsNonContracting by decide)]
  rfl
private theorem d2_rhs1 (i : S1024x128.Idx) (q : dot_S1024x1280_S128x1280_S1024x128_1_1_0_0_n_n.contr.Idx) :
    (dot_S1024x1280_S128x1280_S1024x128_1_1_0_0_n_n.rhsIdx i q 1).val = (q ⟨0, by decide⟩).val :=
  dot_S1024x1280_S128x1280_S1024x128_1_1_0_0_n_n.rhsIdx_val_of_single rfl i q

/-- The second product into the zero constant, read at (r, cc): row r of the left operand against row cc of the right. -/
private theorem mm2_apply (lhs : FVec Ideal S1024x1280 .bf16) (rhs : FVec Ideal S128x1280 .bf16) (r : Fin 1024) (cc : Fin 128) :
    FloatOps.matmul (F := Ideal) dot_S1024x1280_S128x1280_S1024x128_1_1_0_0_n_n none lhs rhs (constant S1024x128 .f32 0x00000000#32) (ix2 r cc)
      = ∑ d : Fin 1280, lhs (ix2 r d) * rhs (ix2 cc d) := by
  rw [Ideal.matmul_constant_zero_apply, ← Equiv.sum_comp (ValueIdx.contrEquiv1 dot_S1024x1280_S128x1280_S1024x128_1_1_0_0_n_n 1280 rfl rfl).symm]
  refine Finset.sum_congr rfl fun k _ => ?_
  have hk := ValueIdx.contrEquiv1_symm_val dot_S1024x1280_S128x1280_S1024x128_1_1_0_0_n_n 1280 rfl rfl k
  have el : dot_S1024x1280_S128x1280_S1024x128_1_1_0_0_n_n.lhsIdx (ix2 r cc) ((ValueIdx.contrEquiv1 dot_S1024x1280_S128x1280_S1024x128_1_1_0_0_n_n 1280 rfl rfl).symm k) = ix2 r k := funext fun a => Fin.ext (by
    match a with
    | ⟨0, _⟩ => exact d2_lhs0 _ _
    | ⟨1, _⟩ => exact (d2_lhs1 _ _).trans hk)
  have er : dot_S1024x1280_S128x1280_S1024x128_1_1_0_0_n_n.rhsIdx (ix2 r cc) ((ValueIdx.contrEquiv1 dot_S1024x1280_S128x1280_S1024x128_1_1_0_0_n_n 1280 rfl rfl).symm k) = ix2 cc k := funext fun a => Fin.ext (by
    match a with
    | ⟨0, _⟩ => exact d2_rhs0 _ _
    | ⟨1, _⟩ => exact (d2_rhs1 _ _).trans hk)
  rw [el, er]

/-- The zero block is zero everywhere. -/
theorem pay1_apply (r : Fin 1024) (cc : Fin 128) : k0_pay1 (F := Ideal) (ix2 r cc) = 0 := by
  unfold k0_pay1
  rw [shapeCast_self]
  exact Ideal.ofBits_zero_f32

/-- The update of the running block at (r, cc): the old entry plus the 1280 coded products of this step. -/
theorem pay2_apply (x0 : Vec Ideal S1024x1024 .f32) (x1 : Vec Ideal S1280x1024 .f32) (x2 : Vec Ideal S128x1280 .bf16)
    (acc : Vec Ideal S1024x128 .f32) (r : Fin 1024) (cc : Fin 128) :
    k0_pay2 (F := Ideal) x0 x1 x2 acc (ix2 r cc)
      = acc (ix2 r cc) + ∑ d : Fin 1280, Cert.Spec.code (∑ j : Fin 1024, x0 (ix2 r j) * x1 (ix2 d j)) * x2 (ix2 cc d) := by
  unfold k0_pay2
  simp only [shapeCast_self]
  -- the sum of the accumulator and the second product, read at (r, cc)
  refine congrArg (acc (ix2 r cc) + ·) ((mm2_apply _ _ r cc).trans ?_)
  refine Finset.sum_congr rfl fun d _ => ?_
  refine congrArg (· * x2 (ix2 cc d)) ?_
  -- the coded first product at (r, d)
  exact congrArg (fun p => Scalar.select (FloatOps.cmpf (F := Ideal) (φ := .f32) .ogt p Cert.Spec.zero) Cert.Spec.one Cert.Spec.negOne)
    (mm1_apply x0 x1 r d)

/-- The output value at (r, cc): ten thousand plus the running entry, halved. -/
theorem pay3_apply (v : Vec Ideal S1024x128 .f32) (r : Fin 1024) (cc : Fin 128) :
    k0_pay3 (F := Ideal) v (ix2 r cc) = (Cert.Spec.tenK + v (ix2 r cc)) * Cert.Spec.half := rfl

end Cert.KernelSide

end
-- ==== Proof.Entry.lean ====
/-
  The arrays the kernel region finds, entry by entry.

  Before the region the host centres the samples (x − ½), pads the weights from 10000 to 10240 rows with zeros, codes
  each centroid bit +1 / −1 and pads the coded centroids from [100, 10000] to [128, 10240] with zeros.  So: a centred
  entry is the sample minus one half; a padded weight row below 10000 is the weight row; a padded coded centroid
  entry inside [100, 10000] is the code of the bit, and from column 10000 on it is zero.
-/
import proofs.«132201_j48223892799748_2_alg».proof.Proof.Spec
import proofs.«132201_j48223892799748_2_alg».proof.Proof.Gen.KernelIdeal.Frame
import Idealize.ShloMosaic.Lib.Pipeline.Value
import Idealize.ShloMosaic.Lib.KernelVsHost
import Idealize.ShloMosaic.Lib.StableHlo.Run

noncomputable section

open scoped BigOperators
open Idealize.ShloMosaic Idealize.ShloMosaic.ValueIdx Idealize.ShloMosaic.TcCoe Idealize.SL.Sem

namespace Cert.KernelSide
open Cert.KernelIdeal Cert.KernelIdeal.Gen

variable (m : (ℓ : Loc nD τ sig) → Buf (Elt Ideal) ℓ)

/-- The three argument arrays as launched, and the three arrays the region finds, as plain functions of an index. -/
abbrev samples (c : Dev nD) : S8192x1024.Idx → EReal := m ((c : Thread nD τ).loc main_arg0)
abbrev weight (c : Dev nD) : S10000x1024.Idx → EReal := m ((c : Thread nD τ).loc main_arg1)
abbrev cents (c : Dev nD) : S100x10000.Idx → BitVec 1 := m ((c : Thread nD τ).loc main_arg2)
abbrev centred (c : Dev nD) : S8192x1024.Idx → EReal := V m c main_v1
abbrev weightPad (c : Dev nD) : S10240x1024.Idx → EReal := V m c main_v2
abbrev centPad (c : Dev nD) : S128x10240.Idx → EReal := V m c main_v5

/-- The centred samples as the host operations' composed term. -/
private theorem centred_eq (c : Dev nD) :
    (V m c main_v1 : S8192x1024.Idx → EReal)
      = subf (m ((c : Thread nD τ).loc main_arg0))
          (broadcastInDim S8192x1024 ![] bcast_S_S8192x1024 (constant (F := Ideal) S_ .f32 0x3F000000#32)) := by
  dsimp only [V, V0]
  simp only [hostOps0, hostOps0_1, hostOps0_2, hostOps0_3, hostOps0_4, hostOps0_5, List.flatten_cons,
    List.flatten_nil, List.append_nil, List.cons_append, List.nil_append]
  after_results <;> rfl

/-- The padded weight as the host operations' composed term. -/
private theorem weightPad_eq (c : Dev nD) :
    (V m c main_v2 : S10240x1024.Idx → EReal)
      = pad S10240x1024 ![0, 0] ![240, 0] ![0, 0] (m ((c : Thread nD τ).loc main_arg1))
          (sitofp (F := Ideal) .f32 (constantI S_ 32 0#32)) pads_S10000x1024_S10240x1024_02400_000 h_S_ := by
  dsimp only [V, V0]
  simp only [hostOps0, hostOps0_1, hostOps0_2, hostOps0_3, hostOps0_4, hostOps0_5, List.flatten_cons,
    List.flatten_nil, List.append_nil, List.cons_append, List.nil_append]
  after_results <;> rfl

/-- The padded coded centroids as the host operations' composed term. -/
private theorem centPad_eq (c : Dev nD) :
    (V m c main_v5 : S128x10240.Idx → EReal)
      = pad S128x10240 ![0, 0] ![28, 240] ![0, 0]
          (truncf (F := Ideal) .bf16
            (select (m ((c : Thread nD τ).loc main_arg2))
              (broadcastInDim S100x10000 ![] bcast_S_S100x10000 (constant (F := Ideal) S_ .f32 0x3F800000#32))
              (broadcastInDim S100x10000 ![] bcast_S_S100x10000 (constant (F := Ideal) S_ .f32 0xBF800000#32)))
            bitsLt_bf16_f32)
          (sitofp (F := Ideal) .bf16 (constantI S_ 32 0#32)) pads_S100x10000_S128x10240_0280_02400 h_S_ := by
  dsimp only [V, V0]
  simp only [hostOps0, hostOps0_1, hostOps0_2, hostOps0_3, hostOps0_4, hostOps0_5, List.flatten_cons,
    List.flatten_nil, List.append_nil, List.cons_append, List.nil_append]
  after_results <;> rfl

/-- A centred entry is the sample minus one half. -/
theorem centred_apply (c : Dev nD) (b : Fin 8192) (j : Fin 1024) :
    centred m c (ix2 b j) = samples m c (ix2 b j) - Cert.Spec.half := by
  show (V m c main_v1 : S8192x1024.Idx → EReal) (ix2 b j) = _
  rw [centred_eq, subf_apply,
    broadcastInDim_apply _ bcast_S_S8192x1024 _ (ix2 b j) (fun a => a.elim0) (fun a => a.elim0)]
  rfl

/-- Below row 10000 the padded weights are the weights. -/
theorem weightPad_apply_lt (c : Dev nD) (d : Fin 10240) (hd : d.val < 10000) (j : Fin 1024) :
    weightPad m c (ix2 d j) = weight m c (ix2 ⟨d.val, hd⟩ j) := by
  show (V m c main_v2 : S10240x1024.Idx → EReal) (ix2 d j) = _
  rw [weightPad_eq]
  exact pad_apply_of_inside _ _ _ _ _ pads_S10000x1024_S10240x1024_02400_000 h_S_ (ix2 d j)
    (ix2 (⟨d.val, hd⟩ : Fin 10000) j) (by
      intro a
      match a with
      | ⟨0, _⟩ => show d.val = 0 + d.val * (0 + 1); omega
      | ⟨1, _⟩ => show j.val = 0 + j.val * (0 + 1); omega)

/-- Inside [100, 10000] the padded coded centroids are the codes of the bits. -/
theorem centPad_apply_lt (c : Dev nD) (cc : Fin 128) (d : Fin 10240) (hc : cc.val < 100) (hd : d.val < 10000) :
    centPad m c (ix2 cc d) = Cert.Spec.pm (cents m c (ix2 ⟨cc.val, hc⟩ ⟨d.val, hd⟩)) := by
  show (V m c main_v5 : S128x10240.Idx → EReal) (ix2 cc d) = _
  rw [centPad_eq,
    pad_apply_of_inside _ _ _ _ _ pads_S100x10000_S128x10240_0280_02400 h_S_ (ix2 cc d)
      (ix2 (⟨cc.val, hc⟩ : Fin 100) (⟨d.val, hd⟩ : Fin 10000)) (by
        intro a
        match a with
        | ⟨0, _⟩ => show cc.val = 0 + cc.val * (0 + 1); omega
        | ⟨1, _⟩ => show d.val = 0 + d.val * (0 + 1); omega),
    truncf_apply, select_apply,
    broadcastInDim_apply _ bcast_S_S100x10000 _ (ix2 (⟨cc.val, hc⟩ : Fin 100) (⟨d.val, hd⟩ : Fin 10000))
      (fun a => a.elim0) (fun a => a.elim0),
    broadcastInDim_apply _ bcast_S_S100x10000 _ (ix2 (⟨cc.val, hc⟩ : Fin 100) (⟨d.val, hd⟩ : Fin 10000))
      (fun a => a.elim0) (fun a => a.elim0)]
  rfl

/-- From column 10000 on the padded coded centroids are zero. -/
theorem centPad_apply_ge (c : Dev nD) (cc : Fin 128) (d : Fin 10240) (hd : 10000 ≤ d.val) :
    centPad m c (ix2 cc d) = 0 := by
  show (V m c main_v5 : S128x10240.Idx → EReal) (ix2 cc d) = _
  rw [centPad_eq,
    pad_apply_of_not_inside _ _ _ _ _ pads_S100x10000_S128x10240_0280_02400 h_S_ (ix2 cc d) (1 : Fin 2) (by
      show ¬(0 ≤ d.val ∧ (d.val - 0) % (0 + 1) = 0 ∧ (d.val - 0) / (0 + 1) < 10000)
      omega),
    sitofp_apply]
  exact sitofp_zero (φ := .bf16)

end Cert.KernelSide

end
-- ==== Proof.Blocks.lean ====
/-
  The blocks the kernel body is handed, entry by entry.

  The grid is 8 × 8; point `t` is row `t / 8`, step `t % 8`.  There the sample block is rows
  `(t / 8) · 1024 …` of the centred samples, the weight block rows `(t % 8) · 1280 …` of the padded weights, and the
  centroid block columns `(t % 8) · 1280 …` of the padded coded centroids: a block's coordinate is its block index
  times the block's extent plus the coordinate inside the block.
-/
import proofs.«132201_j48223892799748_2_alg».proof.Proof.Entry

noncomputable section

open scoped BigOperators
open Idealize.ShloMosaic Idealize.ShloMosaic.ValueIdx Idealize.ShloMosaic.TcCoe Idealize.SL.Sem

namespace Cert.KernelSide
open Cert.KernelIdeal Cert.KernelIdeal.Gen

variable (m : (ℓ : Loc nD τ sig) → Buf (Elt Ideal) ℓ)

/-- The block of each input the body is handed at grid point `t`, as a plain function of an index in the block. -/
abbrev blk0 (c : Dev nD) (t : Fin cfg0.N) : S1024x1024.Idx → EReal := iblk m c 0 t
abbrev blk1 (c : Dev nD) (t : Fin cfg0.N) : S1280x1024.Idx → EReal := iblk m c 1 t
abbrev blk2 (c : Dev nD) (t : Fin cfg0.N) : S128x1280.Idx → EReal := iblk m c 2 t

/-- Point `t` is row `t / 8`, step `t % 8` of the 8 × 8 grid: the block indices of the four windows there. -/
theorem idx_facts : ∀ t : Fin cfg0.N,
    win0_0.index t (0 : Fin 2) = t.val / 8 ∧ win0_0.index t (1 : Fin 2) = 0
    ∧ win0_1.index t (0 : Fin 2) = t.val % 8 ∧ win0_1.index t (1 : Fin 2) = 0
    ∧ win0_2.index t (0 : Fin 2) = 0 ∧ win0_2.index t (1 : Fin 2) = t.val % 8
    ∧ win0_3.index t (0 : Fin 2) = t.val / 8 ∧ win0_3.index t (1 : Fin 2) = 0 :=
  (by decide +kernel : ∀ t : Fin grid0.N,
    win0_0.index t (0 : Fin 2) = t.val / 8 ∧ win0_0.index t (1 : Fin 2) = 0
    ∧ win0_1.index t (0 : Fin 2) = t.val % 8 ∧ win0_1.index t (1 : Fin 2) = 0
    ∧ win0_2.index t (0 : Fin 2) = 0 ∧ win0_2.index t (1 : Fin 2) = t.val % 8
    ∧ win0_3.index t (0 : Fin 2) = t.val / 8 ∧ win0_3.index t (1 : Fin 2) = 0)

/-- Row `r` of the sample block at point `t` is row `(t / 8) · 1024 + r` of the centred samples. -/
theorem blk0_apply (c : Dev nD) (t : Fin cfg0.N) (r : Fin 1024) (j : Fin 1024) (b : Fin 8192)
    (hb : b.val = t.val / 8 * 1024 + r.val) : blk0 m c t (ix2 r j) = centred m c (ix2 b j) := by
  show ((cfg0.win 0).blk t).view.read (Elt Ideal) (V m c (Pipeline.arrRef spec0 0)) (ix2 r j) = _
  rw [View.read_apply]
  show V m c main_v1 (((cfg0.win 0).blk t).view.emb (ix2 r j)) = V m c main_v1 (ix2 b j)
  refine congrArg _ (funext fun a => Fin.ext ?_)
  match a with
  | ⟨0, _⟩ =>
    show win0_0.index t 0 * 1024 + 1 * r.val = b.val
    rw [(idx_facts t).1, hb]; omega
  | ⟨1, _⟩ =>
    show win0_0.index t 1 * 1024 + 1 * j.val = j.val
    rw [(idx_facts t).2.1]; omega

/-- Row `e` of the weight block at point `t` is row `(t % 8) · 1280 + e` of the padded weights. -/
theorem blk1_apply (c : Dev nD) (t : Fin cfg0.N) (e : Fin 1280) (j : Fin 1024) (d : Fin 10240)
    (hd : d.val = t.val % 8 * 1280 + e.val) : blk1 m c t (ix2 e j) = weightPad m c (ix2 d j) := by
  show ((cfg0.win 1).blk t).view.read (Elt Ideal) (V m c (Pipeline.arrRef spec0 1)) (ix2 e j) = _
  rw [View.read_apply]
  show V m c main_v2 (((cfg0.win 1).blk t).view.emb (ix2 e j)) = V m c main_v2 (ix2 d j)
  refine congrArg _ (funext fun a => Fin.ext ?_)
  match a with
  | ⟨0, _⟩ =>
    show win0_1.index t 0 * 1280 + 1 * e.val = d.val
    rw [(idx_facts t).2.2.1, hd]; omega
  | ⟨1, _⟩ =>
    show win0_1.index t 1 * 1024 + 1 * j.val = j.val
    rw [(idx_facts t).2.2.2.1]; omega

/-- Column `e` of the centroid block at point `t` is column `(t % 8) · 1280 + e` of the padded coded centroids. -/
theorem blk2_apply (c : Dev nD) (t : Fin cfg0.N) (cc : Fin 128) (e : Fin 1280) (d : Fin 10240)
    (hd : d.val = t.val % 8 * 1280 + e.val) : blk2 m c t (ix2 cc e) = centPad m c (ix2 cc d) := by
  show ((cfg0.win 2).blk t).view.read (Elt Ideal) (V m c (Pipeline.arrRef spec0 2)) (ix2 cc e) = _
  rw [View.read_apply]
  show V m c main_v5 (((cfg0.win 2).blk t).view.emb (ix2 cc e)) = V m c main_v5 (ix2 cc d)
  refine congrArg _ (funext fun a => Fin.ext ?_)
  match a with
  | ⟨0, _⟩ =>
    show win0_2.index t 0 * 128 + 1 * cc.val = cc.val
    rw [(idx_facts t).2.2.2.2.1]; omega
  | ⟨1, _⟩ =>
    show win0_2.index t 1 * 1280 + 1 * e.val = d.val
    rw [(idx_facts t).2.2.2.2.2.1, hd]; omega

end Cert.KernelSide

end
-- ==== Proof.Accum.lean ====
/-
  The running block along the grid.

  Write `term b cc d` for what padded position `d` contributes to entry (b, cc).  One update at grid point `t`
  adds the 1280 terms of step `t % 8` to the running block; a grid row starts from zero; so after point `n` the
  running block holds the first `(n % 8 + 1) · 1280` terms of its rows, by induction along the grid, and at the last
  step of a row the output block holds `(10000 + all 10240 terms) · ½`.  Only the re-grouping of a finite sum in a
  commutative monoid is used: no finiteness of any entry.
-/
import proofs.«132201_j48223892799748_2_alg».proof.Proof.Pieces
import proofs.«132201_j48223892799748_2_alg».proof.Proof.Payload
import proofs.«132201_j48223892799748_2_alg».proof.Proof.Blocks

noncomputable section

open scoped BigOperators
open Idealize.ShloMosaic Idealize.ShloMosaic.ValueIdx Idealize.ShloMosaic.TcCoe Idealize.SL.Sem

namespace Cert.KernelSide
open Cert.KernelIdeal Cert.KernelIdeal.Gen

variable (m : (ℓ : Loc nD τ sig) → Buf (Elt Ideal) ℓ)

/-- What padded position `d` contributes to entry (b, cc): the code of sample row `b` projected on padded weight row
    `d`, times the padded coded centroid at (cc, d). -/
def term (c : Dev nD) (b : Fin 8192) (cc : Fin 128) (d : ℕ) : EReal :=
  if h : d < 10240 then
    Cert.Spec.code (∑ j : Fin 1024, centred m c (ix2 b j) * weightPad m c (ix2 ⟨d, h⟩ j)) * centPad m c (ix2 cc ⟨d, h⟩)
  else 0

/-- One update at point `t`: the running block gains the 1280 contributions of step `t % 8`. -/
theorem step (c : Dev nD) (t : Fin cfg0.N) (acc : Vec Ideal S1024x128 .f32) (r : Fin 1024) (cc : Fin 128) (b : Fin 8192)
    (hb : b.val = t.val / 8 * 1024 + r.val) :
    k0_pay2 (F := Ideal) (blk0 m c t) (blk1 m c t) (blk2 m c t) acc (ix2 r cc)
      = acc (ix2 r cc) + ∑ e ∈ Finset.range 1280, term m c b cc (t.val % 8 * 1280 + e) := by
  have hN : t.val < 64 := lt_of_lt_of_eq t.isLt (show cfg0.N = 64 from N_0)
  rw [pay2_apply, Finset.sum_range]
  refine congrArg (acc (ix2 r cc) + ·) (Finset.sum_congr rfl fun e _ => ?_)
  have he : t.val % 8 * 1280 + e.val < 10240 := by have := e.isLt; omega
  unfold term
  rw [dif_pos he, blk2_apply m c t cc e ⟨_, he⟩ rfl]
  refine congrArg (fun s => Cert.Spec.code s * _) (Finset.sum_congr rfl fun j _ => ?_)
  rw [blk0_apply m c t r j b hb, blk1_apply m c t e j ⟨_, he⟩ rfl]

/-- The first point of a grid row: the running block starts from zero and holds the first 1280 contributions. -/
theorem acc_first (c : Dev nD) (t : Fin cfg0.N) (h0 : t.val % 8 = 0) (r : Fin 1024) (cc : Fin 128) (b : Fin 8192)
    (hb : b.val = t.val / 8 * 1024 + r.val) :
    (outsAt0 m c t.val t.isLt).2 (ix2 r cc) = ∑ d ∈ Finset.range ((t.val % 8 + 1) * 1280), term m c b cc d := by
  have h1 : ¬t.val % 8 = 7 := by omega
  rw [outsAt0_A m c t h0 h1]
  dsimp only
  rw [sout_A (F := Ideal) c (grid0.coords t) (ms0_0 t) (hs0_0 t) (ms0_1 t) (hs0_1 t) (ms0_2 t) (hs0_2 t) (ms0_3 t) (hs0_3 t) scM0_0 (Memref.isWhole_whole _) _ _ (iblk m c 0 t) (iblk m c 1 t) (iblk m c 2 t)]
  refine (step m c t _ r cc b hb).trans ?_
  rw [pay1_apply, Cert.Spec.sum_range_succ_block, h0, Nat.zero_mul, Finset.range_zero, Finset.sum_empty]

/-- A later point of a grid row: the running block gains the next 1280 contributions. -/
theorem acc_next (c : Dev nD) (t : Fin cfg0.N) (h0 : ¬t.val % 8 = 0) (r : Fin 1024) (cc : Fin 128) (b : Fin 8192)
    (hb : b.val = t.val / 8 * 1024 + r.val)
    (ih : (outsAt0 m c (t.val - 1) (Nat.lt_of_le_of_lt (Nat.sub_le _ _) t.isLt)).2 (ix2 r cc)
      = ∑ d ∈ Finset.range (t.val % 8 * 1280), term m c b cc d) :
    (outsAt0 m c t.val t.isLt).2 (ix2 r cc) = ∑ d ∈ Finset.range ((t.val % 8 + 1) * 1280), term m c b cc d := by
  by_cases h1 : t.val % 8 = 7
  · rw [outsAt0_C m c t h0 h1]
    dsimp only
    rw [sout_C (F := Ideal) c (grid0.coords t) (ms0_0 t) (hs0_0 t) (ms0_1 t) (hs0_1 t) (ms0_2 t) (hs0_2 t) (ms0_3 t) (hs0_3 t) scM0_0 (Memref.isWhole_whole _) _ _ (iblk m c 0 t) (iblk m c 1 t) (iblk m c 2 t) (outsAt0 m c (t.val - 1) _).2]
    refine (step m c t _ r cc b hb).trans ?_
    rw [ih, Cert.Spec.sum_range_succ_block]
  · rw [outsAt0_B m c t h0 h1]
    dsimp only
    rw [sout_B (F := Ideal) c (grid0.coords t) (ms0_0 t) (hs0_0 t) (ms0_1 t) (hs0_1 t) (ms0_2 t) (hs0_2 t) (ms0_3 t) (hs0_3 t) scM0_0 (Memref.isWhole_whole _) _ _ (iblk m c 0 t) (iblk m c 1 t) (iblk m c 2 t) (outsAt0 m c (t.val - 1) _).2]
    refine (step m c t _ r cc b hb).trans ?_
    rw [ih, Cert.Spec.sum_range_succ_block]

/-- After point `n` the running block holds, at (r, cc), the contributions of the first `(n % 8 + 1) · 1280` padded
    positions to entry (b, cc), `b` the row `(n / 8) · 1024 + r`: by induction along the grid. -/
theorem acc_eq (c : Dev nD) : ∀ (n : ℕ) (h : n < cfg0.N) (r : Fin 1024) (cc : Fin 128) (b : Fin 8192),
    b.val = n / 8 * 1024 + r.val →
    (outsAt0 m c n h).2 (ix2 r cc) = ∑ d ∈ Finset.range ((n % 8 + 1) * 1280), term m c b cc d := by
  intro n
  induction n with
  | zero => intro h r cc b hb; exact acc_first m c ⟨0, h⟩ rfl r cc b hb
  | succ n ih =>
    intro h r cc b hb
    by_cases h0 : (n + 1) % 8 = 0
    · exact acc_first m c ⟨n + 1, h⟩ h0 r cc b hb
    · refine acc_next m c ⟨n + 1, h⟩ h0 r cc b hb ?_
      show (outsAt0 m c n _).2 (ix2 r cc) = ∑ d ∈ Finset.range ((n + 1) % 8 * 1280), term m c b cc d
      rw [ih (Nat.lt_of_succ_lt h) r cc b (by omega), show n % 8 + 1 = (n + 1) % 8 by omega]

/-- At the last point of a row the output block holds `(10000 + Σ over all 10240 padded positions) · ½`. -/
theorem out_eq (c : Dev nD) (t : Fin cfg0.N) (h7 : t.val % 8 = 7) (r : Fin 1024) (cc : Fin 128) (b : Fin 8192)
    (hb : b.val = t.val / 8 * 1024 + r.val) :
    (outsAt0 m c t.val t.isLt).1 (ix2 r cc)
      = (Cert.Spec.tenK + ∑ d ∈ Finset.range 10240, term m c b cc d) * Cert.Spec.half := by
  have h0 : ¬t.val % 8 = 0 := by omega
  have hacc := acc_eq m c t.val t.isLt r cc b hb
  rw [show (t.val % 8 + 1) * 1280 = 10240 by omega] at hacc
  rw [outsAt0_C m c t h0 h7] at hacc ⊢
  dsimp only at hacc ⊢
  rw [sout_C (F := Ideal) c (grid0.coords t) (ms0_0 t) (hs0_0 t) (ms0_1 t) (hs0_1 t) (ms0_2 t) (hs0_2 t) (ms0_3 t) (hs0_3 t) scM0_0 (Memref.isWhole_whole _) _ _ (iblk m c 0 t) (iblk m c 1 t) (iblk m c 2 t) (outsAt0 m c (t.val - 1) _).2] at hacc
  rw [out_C (F := Ideal) c (grid0.coords t) (ms0_0 t) (hs0_0 t) (ms0_1 t) (hs0_1 t) (ms0_2 t) (hs0_2 t) (ms0_3 t) (hs0_3 t) scM0_0 (Memref.isWhole_whole _) _ _ (iblk m c 0 t) (iblk m c 1 t) (iblk m c 2 t) (outsAt0 m c (t.val - 1) _).2, pay3_apply, hacc]

end Cert.KernelSide

end
-- ==== Proof.Final.lean ====
/-
  From the output blocks to the program's result.

  The output window's block at grid point `t` is rows `(t / 8) · 1024 …` of the [8192, 128] array, and it is written
  back only at the last step of each grid row, when it holds `(10000 + all 10240 terms) · ½` of those rows.  The
  eight write-backs tile the array, so it ends holding that function of its index everywhere; the host operation
  after the region keeps columns 0 … 99 of it.
-/
import proofs.«132201_j48223892799748_2_alg».proof.Proof.Accum
import Idealize.ShloMosaic.Lib.StableHlo.Run

noncomputable section

open scoped BigOperators
open Idealize.ShloMosaic Idealize.ShloMosaic.ValueIdx Idealize.ShloMosaic.TcCoe Idealize.SL.Sem
open Idealize.ShloMosaic.Pipeline (Dat)

namespace Cert.KernelSide
open Cert.KernelIdeal Cert.KernelIdeal.Gen

variable (m : (ℓ : Loc nD τ sig) → Buf (Elt Ideal) ℓ)

/-- The padded result [8192, 128]: at (b, cc), `(10000 + Σ over the 10240 padded positions) · ½`. -/
def full (c : Dev nD) : S8192x128.Idx → EReal :=
  fun i => (Cert.Spec.tenK + ∑ d ∈ Finset.range 10240, term m c (i 0) (i 1) d) * Cert.Spec.half

/-- What the last point of grid row `t / 8` writes back is rows `(t / 8) · 1024 …` of the padded result. -/
theorem flushed_eq (c : Dev nD) (t : Fin cfg0.N) (hf : (cfg0.win 3).flush t = true) :
    (dats (F := Ideal) m 0 c).flushed 3 t = ((cfg0.win 3).blk t).view.read (Elt Ideal) (full m c) := by
  have hN : t.val < 64 := lt_of_lt_of_eq t.isLt (show cfg0.N = 64 from N_0)
  have h7 : t.val % 8 = 7 := (flush0_3 t).mp hf
  show (cfg0.win 3).cut (grid0.coords t) ((dats (F := Ideal) m 0 c).after 3 t) = _
  rw [after0_3]
  refine funext fun (y : S1024x128.Idx) => ?_
  obtain ⟨r, cc, rfl⟩ : ∃ (r : Fin 1024) (cc : Fin 128), y = ix2 r cc := ⟨y 0, y 1, eq_ix2 y⟩
  have hr : r.val < 1024 := r.isLt
  rw [View.read_apply]
  show (outsAt0 m c t.val t.isLt).1 (ix2 r cc) = full m c (((cfg0.win 3).blk t).view.emb (ix2 r cc))
  have hb : t.val / 8 * 1024 + r.val < 8192 := by omega
  rw [out_eq m c t h7 r cc ⟨t.val / 8 * 1024 + r.val, hb⟩ rfl]
  unfold full
  -- the block's index (r, cc) sits at row (t / 8) · 1024 + r, column cc of the array
  have e0 : (((cfg0.win 3).blk t).view.emb (ix2 r cc)) 0 = (⟨t.val / 8 * 1024 + r.val, hb⟩ : Fin 8192) := Fin.ext (by
    show win0_3.index t 0 * 1024 + 1 * r.val = t.val / 8 * 1024 + r.val
    rw [(idx_facts t).2.2.2.2.2.2.1]; omega)
  have e1 : (((cfg0.win 3).blk t).view.emb (ix2 r cc)) 1 = cc := Fin.ext (by
    show win0_3.index t 1 * 128 + 1 * cc.val = cc.val
    rw [(idx_facts t).2.2.2.2.2.2.2]; omega)
  rw [e0, e1]

/-- The eight write-backs cover the array: it ends holding the padded result. -/
theorem final (c : Dev nD) : (dats (F := Ideal) m 0 c).arrAt 3 cfg0.N = full m c :=
  (dats (F := Ideal) m 0 c).arrAt_eq_of_cover 3 (full m c) (fun t hf => flushed_eq m c t hf) fun (i : S8192x128.Idx) => by
    have hi0 : (i 0).val < 8192 := (i 0).isLt
    have hi1 : (i 1).val < 128 := (i 1).isLt
    have hN : cfg0.N = 64 := N_0
    -- row i₀ is written back at the last step of grid row i₀ / 1024
    obtain ⟨t, ht⟩ : ∃ t : Fin cfg0.N, t.val = (i 0).val / 1024 * 8 + 7 := ⟨⟨(i 0).val / 1024 * 8 + 7, by omega⟩, rfl⟩
    refine ⟨t, (flush0_3 t).mpr (by omega), ?_⟩
    show i ∈ ((View.whole main_v6).slice (win0_3.rect t)).set
    rw [View.set_slice_whole, Rect.mem_set_unit]
    intro a
    match a with
    | ⟨0, _⟩ =>
      show win0_3.index t 0 * 1024 ≤ (i 0).val ∧ (i 0).val < win0_3.index t 0 * 1024 + 1024
      rw [(idx_facts t).2.2.2.2.2.2.1]; omega
    | ⟨1, _⟩ =>
      show win0_3.index t 1 * 128 ≤ (i 1).val ∧ (i 1).val < win0_3.index t 1 * 128 + 128
      rw [(idx_facts t).2.2.2.2.2.2.2]; omega

/-- The program's result: the host's slice of the region's array, after the run. -/
abbrev result (c : Dev nD) : S8192x100.Idx → EReal :=
  Pipeline.afterTail₀ cfgs (dats (F := Ideal) m) 0 (V0 m) [hostOps1] c main_v7

/-- The slice keeps the first hundred columns. -/
theorem result_apply (c : Dev nD) (b : Fin 8192) (cc : Fin 100) :
    result m c (ix2 b cc) = full m c (ix2 b ⟨cc.val, by have := cc.isLt; omega⟩) := by
  have hcc : cc.val < 128 := by have := cc.isLt; omega
  -- the region's array, as the host operation after it finds it, is the padded result
  have hA : Pipeline.withArrays spec0 c (V0 m c) (fun w => (dats (F := Ideal) m 0 c).arrAt w cfg0.N) (Proc.devRef .tc main_v6)
      = full m c :=
    (Pipeline.withArrays_arr spec0 launch0.win.arr_inj c _ _ 3).trans (final m c)
  -- so the program's result is the host's slice of it
  have hR : result m c = extractStridedSlice S8192x100 ![0, 0] (full m c) slices_S8192x128_S8192x100_0_0 := by
    unfold result Pipeline.afterTail₀
    show StableHlo.after hostOps1 _ (Proc.devRef .tc main_v7) = _
    after_results
    rw [hA]
  rw [hR]
  refine extractStridedSlice_apply _ _ _ _ (ix2 b ⟨cc.val, hcc⟩) fun a => ?_
  match a with
  | ⟨0, _⟩ => show b.val = 0 + b.val; omega
  | ⟨1, _⟩ => show cc.val = 0 + cc.val; omega

end Cert.KernelSide

end
-- ==== Proof.TermSum.lean ====
/-
  The padded sum is the specification's sum.
-/
import proofs.«132201_j48223892799748_2_alg».proof.Proof.Accum

noncomputable section

open scoped BigOperators
open Idealize.ShloMosaic Idealize.ShloMosaic.ValueIdx Idealize.ShloMosaic.TcCoe Idealize.SL.Sem

namespace Cert.KernelSide
open Cert.KernelIdeal Cert.KernelIdeal.Gen

variable (m : (ℓ : Loc nD τ sig) → Buf (Elt Ideal) ℓ)

/-- For a real centroid column the padding does not count: past position 10000 the coded centroid is zero, and
    before it the padded arrays are the arguments — the sum over the padded positions is the specification's. -/
theorem term_sum (c : Dev nD) (b : Fin 8192) (cc : Fin 100) :
    ∑ d ∈ Finset.range 10240, term m c b ⟨cc.val, by have := cc.isLt; omega⟩ d
      = ∑ d : Fin 10000, Cert.Spec.code (Cert.Spec.proj (samples m c) (weight m c) b d)
          * Cert.Spec.pm (cents m c (ix2 cc d)) := by
  refine (Cert.Spec.sum_range_of_tail_zero _ 10000 10240 (by norm_num) fun d h1 h2 => ?_).trans ?_
  · -- a padded position: the coded centroid there is zero
    show term m c b _ d = 0
    unfold term
    rw [dif_pos h2, centPad_apply_ge m c _ ⟨d, h2⟩ h1, mul_zero]
  · -- a real position: the padded arrays are the arguments there
    rw [Finset.sum_range]
    refine Finset.sum_congr rfl fun d _ => ?_
    have hd : d.val < 10240 := by have := d.isLt; omega
    have hproj : (∑ j : Fin 1024, centred m c (ix2 b j) * weightPad m c (ix2 ⟨d.val, hd⟩ j))
        = Cert.Spec.proj (samples m c) (weight m c) b d := by
      unfold Cert.Spec.proj
      refine Finset.sum_congr rfl fun j _ => ?_
      rw [centred_apply, weightPad_apply_lt m c ⟨d.val, hd⟩ d.isLt j]
    unfold term
    rw [dif_pos hd, hproj, centPad_apply_lt m c _ ⟨d.val, hd⟩ cc.isLt d.isLt]

end Cert.KernelSide

end
-- ==== Proof.KernelRun.lean ====
/-
  The kernel program's run, read: its result is the specification of its arguments.

  At a real centroid column the 10240 padded terms are the specification's 10000 terms followed by zeros, so the
  sliced array is `Cert.Spec.G` of the arguments as launched; the arguments themselves are touched by no operation.
-/
import proofs.«132201_j48223892799748_2_alg».proof.Proof.Final
import proofs.«132201_j48223892799748_2_alg».proof.Proof.TermSum

noncomputable section

open scoped BigOperators
open Idealize.ShloMosaic Idealize.ShloMosaic.ValueIdx Idealize.ShloMosaic.TcCoe Idealize.SL.Sem
open Idealize.ShloMosaic.Pipeline (Dat)

namespace Cert.KernelSide
open Cert.KernelIdeal Cert.KernelIdeal.Gen

variable (m : (ℓ : Loc nD τ sig) → Buf (Elt Ideal) ℓ) (ρ : Dev nD → PrngReg)

/-- The program's result is the specification of the three arguments as launched. -/
theorem result_eq (c : Dev nD) : result m c = Cert.Spec.G (samples m c) (weight m c) (cents m c) := by
  funext i
  obtain ⟨b, cc, rfl⟩ : ∃ (b : Fin 8192) (cc : Fin 100), i = ix2 b cc := ⟨i 0, i 1, eq_ix2 i⟩
  refine (result_apply m c b cc).trans ?_
  unfold full Cert.Spec.G
  show (Cert.Spec.tenK + ∑ d ∈ Finset.range 10240, term m c b ⟨cc.val, _⟩ d) * Cert.Spec.half = _
  rw [term_sum]

/-- The kernel program's run at the ideal instance: it terminates, its result is the specification, its arguments
    end unchanged. -/
theorem run : θ_run defs (onTc (τ := τ) (main (F := Ideal))) ⟨m, fun _ => 0, ρ⟩ fun r => ∀ c : Dev nD,
      r.2.mem ((c.tc : Thread nD τ).loc main_v7) = Cert.Spec.G (samples m c) (weight m c) (cents m c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  (θ_run defs _ _).mono (fun _ h c =>
    ⟨((h c).2 main_v7 (Pipeline.mem_restRefs_of main_v7 (by decide) (by decide))).trans (result_eq m c),
      ((h c).2 main_arg0 (Pipeline.mem_restRefs_of main_arg0 (by decide) (by decide))).trans (W_main_arg0 m (dats m) c),
      ((h c).2 main_arg1 (Pipeline.mem_restRefs_of main_arg1 (by decide) (by decide))).trans (W_main_arg1 m (dats m) c),
      ((h c).2 main_arg2 (Pipeline.mem_restRefs_of main_arg2 (by decide) (by decide))).trans (W_main_arg2 m (dats m) c)⟩)
    (run_main m ρ)

end Cert.KernelSide

end
-- ==== Proof.lean ====
/-
  The claim: the Hamming-similarity kernel against its jnp reference.

  Both programs compute, for sample row `b` and centroid `c`,
      (10000 + Σ_{d < 10000} code(Σ_j (x[b,j] − ½) · w[d,j]) · pm(cent[c,d])) · ½
  (`Cert.Spec.G`): `code` is +1 on a positive projection and −1 elsewhere, `pm` is +1 / −1 on a centroid bit.  The
  reference computes it in one pass.  The kernel pads the weights with 240 zero rows and the coded centroids with
  240 zero columns (and 28 zero rows), walks an 8 × 8 grid — 1024 sample rows by 1280 padded positions at a time —
  adding each step's partial sums into a running block, and at the last step of a grid row writes
  `(10000 + running) · ½`; the host then keeps the first hundred columns.  Over the extended reals the two agree
  because a padded position contributes `code(…) · 0 = 0` and a finite sum may be taken a block at a time in any
  grouping; no finiteness of the inputs is needed, so the precondition is never opened.

  The three frames are the generated ones (the reference's is its generated run with the result dropped); the
  idealization rewrote nothing, so `preserves` is `True`.
-/
import proofs.«132201_j48223892799748_2_alg».proof.Defs
import proofs.«132201_j48223892799748_2_alg».proof.Proof.Gen.Kernel
import proofs.«132201_j48223892799748_2_alg».proof.Proof.Gen.Kernel.Skeleton
import proofs.«132201_j48223892799748_2_alg».proof.Proof.Gen.Kernel.Launch
import proofs.«132201_j48223892799748_2_alg».proof.Proof.Gen.Kernel.Points
import proofs.«132201_j48223892799748_2_alg».proof.Proof.Gen.Kernel.Frame
import proofs.«132201_j48223892799748_2_alg».proof.Proof.Gen.KernelIdeal
import proofs.«132201_j48223892799748_2_alg».proof.Proof.Gen.KernelIdeal.Skeleton
import proofs.«132201_j48223892799748_2_alg».proof.Proof.Gen.KernelIdeal.Launch
import proofs.«132201_j48223892799748_2_alg».proof.Proof.Gen.KernelIdeal.Points
import proofs.«132201_j48223892799748_2_alg».proof.Proof.Gen.KernelIdeal.Frame
import proofs.«132201_j48223892799748_2_alg».proof.Proof.Gen.ReferenceIdeal
import proofs.«132201_j48223892799748_2_alg».proof.Proof.Gen.ReferenceIdeal.Run
import proofs.«132201_j48223892799748_2_alg».proof.Proof.Gen.ReferenceIdeal.Read
import proofs.«132201_j48223892799748_2_alg».proof.Proof.Gen.Pre_finite_inputs
import proofs.«132201_j48223892799748_2_alg».proof.Proof.RefIsSpec
import proofs.«132201_j48223892799748_2_alg».proof.Proof.KernelRun
import Idealize.ShloMosaic.Adequacy
import Idealize.ShloMosaic.Init

noncomputable section

namespace Cert.Proof

open Idealize.ShloMosaic Idealize.SL.Sem Cert.Kernel

/-- The word-level kernel runs and keeps its arguments. -/
theorem frame_kernel : Cert.frame_Kernel := fun m ρ _ => Cert.Kernel.Gen.frame m ρ

/-- So does its reading at the extended reals. -/
theorem frame_kernelIdeal : Cert.frame_KernelIdeal := fun m ρ _ => Cert.KernelIdeal.Gen.frame m ρ

/-- The reference runs and keeps its arguments: its run with the result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

/-- No operation was rewritten when the kernel was read at the extended reals. -/
theorem preserves : Cert.preserves_Kernel_KernelIdeal := trivial

/-- From arguments that agree, the kernel's result is the specification of its arguments and the reference's the
    specification of its own: one function of equal arguments. -/
theorem algebraic : Cert.algebraic_KernelIdeal_ReferenceIdeal := by
  intro m ρ m' ρ' _ hagree
  refine ⟨fun c => Cert.Spec.G (Cert.KernelSide.samples m c) (Cert.KernelSide.weight m c) (Cert.KernelSide.cents m c),
    Cert.KernelSide.run m ρ, ?_⟩
  refine (θ_run Cert.ReferenceIdeal.defs _ _).mono (fun _ h c => ⟨(h c).1.trans ?_, (h c).2⟩)
    (Cert.ReferenceIdeal.Value.run (F := Ideal) m' ρ')
  refine (Cert.ReferenceIdeal.Read.val_main_v14_eq _ _ _).trans ((Cert.RefSide.ref_is_spec _ _ _).trans ?_)
  rw [(hagree c).1, (hagree c).2.1, (hagree c).2.2]

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
